-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x64 : Shape := ⟨2, ![256, 64]⟩
abbrev S64 : Shape := ⟨1, ![64]⟩
abbrev S2x3200000 : Shape := ⟨2, ![2, 3200000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x256 .f32) (main_arg1 : FVec F S256x64 .f32) (main_arg2 : FVec F S64 .f32) (main_arg3 : IVec S2x3200000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x256 : Shape := ⟨2, ![100000, 256]⟩
abbrev S256x64 : Shape := ⟨2, ![256, 64]⟩
abbrev S64 : Shape := ⟨1, ![64]⟩
abbrev S2x3200000 : Shape := ⟨2, ![2, 3200000]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S5000x256 : Shape := ⟨2, ![5000, 256]⟩
abbrev S5000x1 : Shape := ⟨2, ![5000, 1]⟩
abbrev S5000x64 : Shape := ⟨2, ![5000, 64]⟩
abbrev S3300000x64 : Shape := ⟨2, ![3300000, 64]⟩
abbrev S1x64 : Shape := ⟨2, ![1, 64]⟩

abbrev nBuf : Space → Nat
  | .hbm => 45
  | .vmem => 7
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S64, .f32⟩
  | .hbm, ⟨3, _⟩ => ⟨S2x3200000, .i32⟩
  | .hbm, ⟨4, _⟩ => ⟨S1x3200000, .i32⟩
  | .hbm, ⟨5, _⟩ => ⟨S3200000, .i32⟩
  | .hbm, ⟨6, _⟩ => ⟨S1x3200000, .i32⟩
  | .hbm, ⟨7, _⟩ => ⟨S3200000, .i32⟩
  | .hbm, ⟨8, _⟩ => ⟨S100000, .i32⟩
  | .hbm, ⟨9, _⟩ => ⟨S3300000, .i32⟩
  | .hbm, ⟨10, _⟩ => ⟨S3300000, .i32⟩
  | .hbm, ⟨11, _⟩ => ⟨S_, .f32⟩
  | .hbm, ⟨12, _⟩ => ⟨S3300000, .f32⟩
  | .hbm, ⟨13, _⟩ => ⟨S_, .f32⟩
  | .hbm, ⟨14, _⟩ => ⟨S100000, .f32⟩
  | .hbm, ⟨15, _⟩ => ⟨S3300000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000x64, .f32⟩
  | .hbm, ⟨36, _⟩ => ⟨S_, .f32⟩
  | .hbm, ⟨37, _⟩ => ⟨S100000x64, .f32⟩
  | .hbm, ⟨38, _⟩ => ⟨S3300000x1, .i32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  dot_S5000x256_S256x64_S5000x64_1_0_0_1_n_n_wf : DotDims.WF S5000x256 S256x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x256 : Shape := ⟨2, ![100000, 256]⟩
abbrev S256x64 : Shape := ⟨2, ![256, 64]⟩
abbrev S64 : Shape := ⟨1, ![64]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S64, .f32⟩
  | .hbm, ⟨3, _⟩ => ⟨S2x3200000, .i32⟩
  | .hbm, ⟨4, _⟩ => ⟨S100000, .i32⟩
  | .hbm, ⟨5, _⟩ => ⟨S1x3200000, .i32⟩
  | .hbm, ⟨6, _⟩ => ⟨S3200000, .i32⟩
  | .hbm, ⟨7, _⟩ => ⟨S3300000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S_, .f32⟩
  | .hbm, ⟨12, _⟩ => ⟨S3300000, .f32⟩
  | .hbm, ⟨13, _⟩ => ⟨S_, .f32⟩
  | .hbm, ⟨14, _⟩ => ⟨S100000, .f32⟩
  | .hbm, ⟨15, _⟩ => ⟨S3300000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S3300000, .i32⟩
  | .hbm, ⟨27, _⟩ => ⟨S3300000, .i1⟩
  | .hbm, ⟨28, _⟩ => ⟨S_, .i32⟩
  | .hbm, ⟨29, _⟩ => ⟨S3300000, .i32⟩
  | .hbm, ⟨30, _⟩ => ⟨S3300000, .i32⟩
  | .hbm, ⟨31, _⟩ => ⟨S3300000, .i32⟩
  | .hbm, ⟨32, _⟩ => ⟨S3300000x1, .i32⟩
  | .hbm, ⟨33, _⟩ => ⟨S3300000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S3300000, .f32⟩
  | .hbm, ⟨44, _⟩ => ⟨S100000x64, .f32⟩
  | .hbm, ⟨45, _⟩ => ⟨S_, .i32⟩
  | .hbm, ⟨46, _⟩ => ⟨S3300000, .i32⟩
  | .hbm, ⟨47, _⟩ => ⟨S3300000, .i1⟩
  | .hbm, ⟨48, _⟩ => ⟨S_, .i32⟩
  | .hbm, ⟨49, _⟩ => ⟨S3300000, .i32⟩
  | .hbm, ⟨50, _⟩ => ⟨S3300000, .i32⟩
  | .hbm, ⟨51, _⟩ => ⟨S3300000, .i32⟩
  | .hbm, ⟨52, _⟩ => ⟨S3300000x1, .i32⟩
  | .hbm, ⟨53, _⟩ => ⟨S3300000x64, .f32⟩
  | .hbm, ⟨54, _⟩ => ⟨S3300000x1, .f32⟩
  | .hbm, ⟨55, _⟩ => ⟨S3300000x64, .f32⟩
  | .hbm, ⟨56, _⟩ => ⟨S3300000x64, .f32⟩
  | .hbm, ⟨57, _⟩ => ⟨S_, .f32⟩
  | .hbm, ⟨58, _⟩ => ⟨S100000x64, .f32⟩
  | .hbm, ⟨59, _⟩ => ⟨S3300000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x64_S100000x64_1_0_0_1_n_n_wf : DotDims.WF S100000x256 S256x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.GcnSpec.lean ====
/-
  A graph-convolution layer with self loops and the symmetric normalisation, as two arrangements of one sum.

  The data: node features already multiplied by the weight matrix, `xw : [N, C]`; the edge list as two index vectors
  `src, dst : [E]` (the given edges followed by one loop per node); a bias `b : [C]`.  The in-degree `deg i` is the number of
  edges whose destination is node `i`, and `dinv i = deg i ^ (-1/2)` where `deg i > 0`, else `0`.

  ARRANGEMENT ONE scales every message by both ends' factors and then sums the messages into their destinations:
      out (i, c) = (∑ over edges e with dst e = i of  xw (src e, c) · (dinv (src e) · dinv (dst e))) + b c.
  ARRANGEMENT TWO scales the rows by the factor of the source first, sums, and scales the sum by the destination's factor:
      out (i, c) = dinv i · (∑ over edges e with dst e = i of  (dinv (src e) · xw (src e, c))) + b c.
  Inside the sum for node `i` the destination's factor is the constant `dinv i`, a non-negative real number, so it
  moves across the sum on the extended reals whatever the summands are.

  An index word is read as a signed integer.  Gathering a row at a negative index first adds `N` to it (the wrap-around of
  array indexing) and then clamps into `[0, N-1]`; summing into destinations takes the index as it is and drops an edge
  whose destination is outside `[0, N)`.  For an edge that is not dropped the destination is in range, so its wrapped
  and clamped index is the destination itself: this is what makes the gathered factor `dinv (dst e)` equal to `dinv i`.
-/
import Idealize.ShloMosaic.PureOps
import Idealize.ShloMosaic.Lib.ValueIdx

noncomputable section

namespace Cert.Gcn

open Idealize.ShloMosaic Idealize.ShloMosaic.ValueIdx

/-! ## Shapes: N = 100000 nodes, E = 3200000 + 100000 edges with the loops, C = 64 output features -/

abbrev S0 : Shape := ⟨0, ![]⟩
abbrev VN : Shape := ⟨1, ![100000]⟩
abbrev VE : Shape := ⟨1, ![3300000]⟩
abbrev VE0 : Shape := ⟨1, ![3200000]⟩
abbrev VC : Shape := ⟨1, ![64]⟩
abbrev ME1 : Shape := ⟨2, ![3300000, 1]⟩
abbrev MN1 : Shape := ⟨2, ![100000, 1]⟩
abbrev MNC : Shape := ⟨2, ![100000, 64]⟩
abbrev MEC : Shape := ⟨2, ![3300000, 64]⟩
abbrev M1C : Shape := ⟨2, ![1, 64]⟩
abbrev M2E : Shape := ⟨2, ![2, 3200000]⟩
abbrev M1E : Shape := ⟨2, ![1, 3200000]⟩

/-! ## The side conditions of the layout operations, decided on these shapes -/

theorem b_0_E : S0.BroadcastsInDim VE (![] : Fin 0 → Fin VE.rank) := by decide
theorem b_0_N : S0.BroadcastsInDim VN (![] : Fin 0 → Fin VN.rank) := by decide
theorem b_0_NC : S0.BroadcastsInDim MNC (![] : Fin 0 → Fin MNC.rank) := by decide
theorem b_E_E1 : VE.BroadcastsInDim ME1 (![0] : Fin 1 → Fin ME1.rank) := by decide
theorem b_E1_EC : ME1.BroadcastsInDim MEC (![0, 1] : Fin 2 → Fin MEC.rank) := by decide
theorem b_N1_NC : MN1.BroadcastsInDim MNC (![0, 1] : Fin 2 → Fin MNC.rank) := by decide
theorem b_C_1C : VC.BroadcastsInDim M1C (![1] : Fin 1 → Fin M1C.rank) := by decide
theorem b_1C_NC : M1C.BroadcastsInDim MNC (![0, 1] : Fin 2 → Fin MNC.rank) := by decide
theorem c_N_N1 : VN.ShapeCasts MN1 := by decide
theorem c_1E_E : M1E.ShapeCasts VE0 := by decide
theorem sl_0 : M2E.Slices ![0, 0] M1E := by decide
theorem sl_1 : M2E.Slices ![1, 0] M1E := by decide
theorem cat_E : Shape.Concatenates [VE0, VN] VE 0 := by decide

/-- Summing one number per edge into its destination node. -/
def sumToNode : ScatterDims VN ME1 VE where
  updateWindowDims := []
  insertedWindowDims := [0]
  scatterDimsToOperandDims := [0]
  indexVectorDim := 1
  wf := by decide
/-- Summing one row per edge into its destination node's row. -/
def sumRowsToNode : ScatterDims MNC ME1 MEC where
  updateWindowDims := [1]
  insertedWindowDims := [0]
  scatterDimsToOperandDims := [0]
  indexVectorDim := 1
  wf := by decide
/-- Taking one number per edge from the node its index names. -/
def takeAtNode : GatherDims VN ME1 VE where
  offsetDims := []
  collapsedSliceDims := [0]
  operandBatchingDims := []
  startIndicesBatchingDims := []
  startIndexMap := [0]
  indexVectorDim := 1
  sliceSizes := ![1]
  wf := by decide
/-- Taking one row per edge from the node its index names. -/
def takeRowAtNode : GatherDims MNC ME1 MEC where
  offsetDims := [1]
  collapsedSliceDims := [0]
  operandBatchingDims := []
  startIndicesBatchingDims := []
  startIndexMap := [0]
  indexVectorDim := 1
  sliceSizes := ![1, 64]
  wf := by decide

variable {F : FTy → Type} [FloatOps F]

/-! ## The edge list with the loops -/

/-- Row `r` of the edge array followed by `0, 1, …, N-1`: the sources (`r = 0`) or destinations (`r = 1`) of the edges
    with one loop per node appended. -/
def ends0 (ei : IVec M2E 32) : IVec VE 32 :=
  concatenate VE 0 [⟨VE0, shapeCast VE0 (extractStridedSlice M1E ![0, 0] ei sl_0) c_1E_E⟩, ⟨VN, iotaInDim VN 32 0⟩] cat_E
def ends1 (ei : IVec M2E 32) : IVec VE 32 :=
  concatenate VE 0 [⟨VE0, shapeCast VE0 (extractStridedSlice M1E ![1, 0] ei sl_1) c_1E_E⟩, ⟨VN, iotaInDim VN 32 0⟩] cat_E

/-- An index vector as the column of start indices. -/
abbrev col (v : IVec VE 32) : IVec ME1 32 := broadcastInDim ME1 ![0] b_E_E1 v

/-- Array indexing's wrap-around: a negative index has `N` added. -/
def wrap (v : IVec VE 32) : IVec VE 32 :=
  select (cmpi .slt v (broadcastInDim VE ![] b_0_E (constantI S0 32 0#32)))
    (addi v (broadcastInDim VE ![] b_0_E (constantI S0 32 100000#32))) v

/-! ## Degree and normalisation factor -/

/-- The in-degree: zero plus one for every edge whose destination is the node. -/
def deg (dst : IVec VE 32) : FVec F VN .f32 :=
  Host.scatterAdd sumToNode (broadcastInDim VN ![] b_0_N (constant (F := F) S0 .f32 0x00000000#32)) (col dst)
    (broadcastInDim VE ![] b_0_E (constant (F := F) S0 .f32 0x3F800000#32))

/-- `deg ^ (-1/2)` where the degree is positive, else zero. -/
def dinv (dst : IVec VE 32) : FVec F VN .f32 :=
  select (cmpf .ogt (deg (F := F) dst) (broadcastInDim VN ![] b_0_N (constant (F := F) S0 .f32 0x00000000#32)))
    (Host.rsqrt (deg (F := F) dst)) (broadcastInDim VN ![] b_0_N (constant (F := F) S0 .f32 0x00000000#32))

/-! ## The two arrangements -/

/-- The bias repeated over the nodes. -/
abbrev biasRows (b : FVec F VC .f32) : FVec F MNC .f32 :=
  broadcastInDim MNC ![0, 1] b_1C_NC (broadcastInDim M1C ![1] b_C_1C b)

/-- The all-zero `[N, C]` array the sums start from. -/
abbrev zerosNC : FVec F MNC .f32 := broadcastInDim MNC ![] b_0_NC (constant (F := F) S0 .f32 0x00000000#32)

/-- Arrangement one: every message scaled by both ends' factors, then summed into its destination. -/
def scaleThenSum (xw : FVec F MNC .f32) (src dst : IVec VE 32) (b : FVec F VC .f32) : FVec F MNC .f32 :=
  addf (Host.scatterAdd sumRowsToNode zerosNC (col dst)
      (mulf (Host.gather takeRowAtNode xw (col (wrap src)))
        (broadcastInDim MEC ![0, 1] b_E1_EC (broadcastInDim ME1 ![0] b_E_E1
          (mulf (Host.gather takeAtNode (dinv (F := F) dst) (col (wrap src)))
            (Host.gather takeAtNode (dinv (F := F) dst) (col (wrap dst))))))))
    (biasRows b)

/-- Arrangement two, over rows `P` that already carry the source's factor: summed into the destination, the sum scaled
    by the destination's factor. -/
def sumThenScale (P : FVec F MNC .f32) (src dst : IVec VE 32) (b : FVec F VC .f32) : FVec F MNC .f32 :=
  addf (mulf (broadcastInDim MNC ![0, 1] b_N1_NC (shapeCast MN1 (dinv (F := F) dst) c_N_N1))
      (Host.scatterAdd sumRowsToNode zerosNC (col dst) (Host.gather takeRowAtNode P (col (wrap src)))))
    (biasRows b)

end Cert.Gcn

end
-- ==== Proof.KernelRun.lean ====
/-
  The kernel program's run, read back.  Before the region the host computes, from the edge array, the two index vectors
  of the edge list with one loop per node appended, the in-degrees and the normalisation factors laid as a column; the
  region multiplies the rows of (features × weights) by that column; after the region the host takes, per edge, the
  source's row of the region's output, sums the rows into their destinations, scales each node's sum by its factor and adds
  the bias.  Read at the result buffer this is arrangement two of the graph-convolution layer applied to the region's
  output array.
-/
import proofs.«148235_j15839839387789_2_alg».proof.Proof.Gen.KernelIdeal.Frame
import proofs.«148235_j15839839387789_2_alg».proof.Proof.GcnSpec
import Idealize.ShloMosaic.Lib.StableHlo.Run

noncomputable section

namespace Cert.KernelIdeal.KerRun

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-! ## What the region finds -/

set_option maxRecDepth 8192 in
set_option maxHeartbeats 2000000 in
/-- The sources of the edges, loops appended. -/
theorem V_main_v5 (c : Dev nD) : (V m c main_v5 : S3300000.Idx → BitVec 32) = Cert.Gcn.ends0 (m ((c.tc : Thread nD τ).loc main_arg3)) := by
  dsimp only [Gen.V, Gen.V0]
  simp only [Gen.hostOps0, Gen.hostOps0_1, Gen.hostOps0_2, List.flatten_cons, List.flatten_nil, List.append_nil, List.cons_append, List.nil_append]
  after_results_simp
  rfl

set_option maxRecDepth 8192 in
set_option maxHeartbeats 2000000 in
/-- The destinations of the edges, loops appended. -/
theorem V_main_v6 (c : Dev nD) : (V m c main_v6 : S3300000.Idx → BitVec 32) = Cert.Gcn.ends1 (m ((c.tc : Thread nD τ).loc main_arg3)) := by
  dsimp only [Gen.V, Gen.V0]
  simp only [Gen.hostOps0, Gen.hostOps0_1, Gen.hostOps0_2, List.flatten_cons, List.flatten_nil, List.append_nil, List.cons_append, List.nil_append]
  after_results_simp
  rfl

set_option maxRecDepth 8192 in
set_option maxHeartbeats 2000000 in
/-- The normalisation factors as a column. -/
theorem V_main_v15 (c : Dev nD) : (V m c main_v15 : S100000x1.Idx → F .f32)
    = shapeCast Cert.Gcn.MN1 (Cert.Gcn.dinv (F := F) (Cert.Gcn.ends1 (m ((c.tc : Thread nD τ).loc main_arg3)))) Cert.Gcn.c_N_N1 := by
  dsimp only [Gen.V, Gen.V0]
  simp only [Gen.hostOps0, Gen.hostOps0_1, Gen.hostOps0_2, List.flatten_cons, List.flatten_nil, List.append_nil, List.cons_append, List.nil_append]
  after_results_simp
  rfl

/-! ## What the host tail reads after the region -/

/-- The buffers after the region: the region's arrays as the write-backs left them, every other buffer as the region found it. -/
abbrev afterRegion (c : Dev nD) : Valuation τ sig (Elt F) :=
  Pipeline.withArrays (cfgs 0).spec c (V0 m c) (fun w => (dats m 0 c).arrAt w (cfgs 0).N)

theorem after_v5 (c : Dev nD) : (afterRegion m c (Proc.tc.devRef main_v5) : S3300000.Idx → BitVec 32)
    = Cert.Gcn.ends0 (m ((c.tc : Thread nD τ).loc main_arg3)) :=
  (Pipeline.withArrays_of_ne _ c (V0 m c) _ main_v5 (by exact (by decide : ∀ w, Pipeline.arrRef spec0 w ≠ main_v5))).trans (V_main_v5 m c)

theorem after_v6 (c : Dev nD) : (afterRegion m c (Proc.tc.devRef main_v6) : S3300000.Idx → BitVec 32)
    = Cert.Gcn.ends1 (m ((c.tc : Thread nD τ).loc main_arg3)) :=
  (Pipeline.withArrays_of_ne _ c (V0 m c) _ main_v6 (by exact (by decide : ∀ w, Pipeline.arrRef spec0 w ≠ main_v6))).trans (V_main_v6 m c)

theorem after_arg2 (c : Dev nD) : (afterRegion m c (Proc.tc.devRef main_arg2) : S64.Idx → F .f32)
    = m ((c.tc : Thread nD τ).loc main_arg2) :=
  (Pipeline.withArrays_of_ne _ c (V0 m c) _ main_arg2 (by exact (by decide : ∀ w, Pipeline.arrRef spec0 w ≠ main_arg2))).trans (V_main_arg2 m c)

/-- The factor column is an input of the region: it ends as the region found it. -/
theorem after_v15 (c : Dev nD) : (afterRegion m c (Proc.tc.devRef main_v15) : S100000x1.Idx → F .f32)
    = shapeCast Cert.Gcn.MN1 (Cert.Gcn.dinv (F := F) (Cert.Gcn.ends1 (m ((c.tc : Thread nD τ).loc main_arg3)))) Cert.Gcn.c_N_N1 :=
  (Pipeline.withArrays_arr spec0 launch0.win.arr_inj c (V0 m c) _ 2).trans
    (((dats m 0 c).arrAt_in 2 rfl _).trans ((A_eq m c 2).trans (V_main_v15 m c)))

/-- The region's output array. -/
theorem after_v16 (c : Dev nD) : (afterRegion m c (Proc.tc.devRef main_v16) : S100000x64.Idx → F .f32)
    = (dats m 0 c).arrAt 3 cfg0.N :=
  Pipeline.withArrays_arr spec0 launch0.win.arr_inj c (V0 m c) _ 3

/-! ## The result -/

/-- What the kernel program leaves in its result: arrangement two of the layer over the region's output array. -/
def result (c : Dev nD) : Buf (Elt F) ((c.tc : Thread nD τ).loc main_v31) :=
  Cert.Gcn.sumThenScale (F := F) ((dats m 0 c).arrAt 3 cfg0.N) (Cert.Gcn.ends0 (m ((c.tc : Thread nD τ).loc main_arg3)))
    (Cert.Gcn.ends1 (m ((c.tc : Thread nD τ).loc main_arg3))) (m ((c.tc : Thread nD τ).loc main_arg2))

set_option maxRecDepth 8192 in
set_option maxHeartbeats 2000000 in
/-- The host tail's result is that. -/
theorem tail_eq (c : Dev nD) : Pipeline.afterTail₀ cfgs (dats m) 0 (V0 m) [hostOps1] c main_v31 = result m c := by
  unfold Pipeline.afterTail₀
  show StableHlo.after hostOps1 _ (Proc.devRef .tc main_v31) = _
  after_results_simp
  show addf (mulf (broadcastInDim S100000x64 ![0, 1] bcast_S100000x1_S100000x64_0_1 (afterRegion m c (Proc.tc.devRef main_v15)))
      (Host.scatterAdd scatter_S100000x64_S3300000x1_S3300000x64_1_0_0_1
        (broadcastInDim S100000x64 ![] bcast_S_S100000x64 (constant S_ FTy.f32 0#32))
        (broadcastInDim S3300000x1 ![0] bcast_S3300000_S3300000x1_0 (afterRegion m c (Proc.tc.devRef main_v6)))
        (Host.gather gather_S100000x64_S3300000x1_S3300000x64_1_0_n_n_0_1_164 (afterRegion m c (Proc.tc.devRef main_v16))
          (broadcastInDim S3300000x1 ![0] bcast_S3300000_S3300000x1_0
            (select (cmpi CmpIPredicate.slt (afterRegion m c (Proc.tc.devRef main_v5)) (broadcastInDim S3300000 ![] bcast_S_S3300000 (constantI S_ 32 0#32)))
              (addi (afterRegion m c (Proc.tc.devRef main_v5)) (broadcastInDim S3300000 ![] bcast_S_S3300000 (constantI S_ 32 100000#32)))
              (afterRegion m c (Proc.tc.devRef main_v5)))))))
      (broadcastInDim S100000x64 ![0, 1] bcast_S1x64_S100000x64_0_1 (broadcastInDim S1x64 ![1] bcast_S64_S1x64_1 (afterRegion m c (Proc.tc.devRef main_arg2)))) = _
  rw [after_v15, after_v6, after_v16, after_v5, after_arg2]
  rfl

/-- Every weakly fair execution of the kernel program terminates with its result at `result` and its arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v31) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨
      ((h c).2 main_v31 (Pipeline.mem_restRefs_of main_v31 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.KerRun

end
-- ==== Proof.RefRun.lean ====
/-
  The reference program's run, read back: it is a straight line of host operations, so every execution ends with each
  buffer at the composition of the operations that wrote it.  Read at the result buffer, the composition is arrangement
  one of the graph-convolution layer (scale every message by both ends' factors, then sum into the destinations) applied
  to the product of the node features with the weight matrix, the edge list with one loop per node appended, and the bias.
-/
import proofs.«148235_j15839839387789_2_alg».proof.Proof.Gen.ReferenceIdeal
import proofs.«148235_j15839839387789_2_alg».proof.Proof.GcnSpec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's 60 host operations in program order; the three operations of the outlined `where` stand at its call. -/
abbrev ops : List (HloOp τ sig (Elt F)) :=
  [ nullary main_v0 (iotaInDim S100000 32 0),
    unary main_arg3 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg3 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)),
    binary main_arg0 main_arg1 main_v30 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x64 ![0, 1] bcast_S3300000x1_S3300000x64_0_1 : (⟨S3300000x1, .f32⟩ : BufTy).Contents (Elt F) → (⟨S3300000x64, .f32⟩ : BufTy).Contents (Elt F)),
    binary main_v37 main_v39 main_v40 (mulf : (⟨S3300000x64, .f32⟩ : BufTy).Contents (Elt F) → (⟨S3300000x64, .f32⟩ : BufTy).Contents (Elt F) → (⟨S3300000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg2 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-- The feature matrix times the weight matrix, the one contraction of the layer. -/
def xw (m : (ℓ : Loc nD τ sig) → Buf (Elt F) ℓ) (c : Dev nD) : FVec F S100000x64 .f32 :=
  Host.dotGeneral dot_S100000x256_S256x64_S100000x64_1_0_0_1_n_n none (m ((c.tc : Thread nD τ).loc main_arg0)) (m ((c.tc : Thread nD τ).loc main_arg1))

/-- What the reference leaves in its result: arrangement one of the layer, of its arguments. -/
def result (m : (ℓ : Loc nD τ sig) → Buf (Elt F) ℓ) (c : Dev nD) : Buf (Elt F) ((c.tc : Thread nD τ).loc main_v46) :=
  Cert.Gcn.scaleThenSum (F := F) (xw m c) (Cert.Gcn.ends0 (m ((c.tc : Thread nD τ).loc main_arg3)))
    (Cert.Gcn.ends1 (m ((c.tc : Thread nD τ).loc main_arg3))) (m ((c.tc : Thread nD τ).loc main_arg2))

set_option maxRecDepth 8192 in
set_option maxHeartbeats 2000000 in
/-- Every weakly fair execution of the reference terminates with its result at `result` and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v46).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RefRun

end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.LibPlainMatmul.lean ====
/-
  The plain matrix product, M×K by K×N, read at an output entry.

  For the dimension numbers that contract the left operand's second axis with the right operand's first one and have no
  batch axes, the left operand is read at (p, l) and the right one at (l, q) when the output index is (p, q) and the
  contraction position is l. Hence, at the ideal instance, a matrix product into the zero accumulator and the host's
  product are at (p, q) the sum over l < K of lhs (p, l) * rhs (l, q), for every M, K, N and operand formats.
-/
import Idealize.ShloMosaic.PureOps.Ideal.Laws
import Idealize.ShloMosaic.Lib.ValueIdx
import proofs.«148235_j15839839387789_2_alg».proof.Proof.LibMatmulSum

noncomputable section

namespace Idealize.ShloMosaic.PlainMatmul

open Idealize.ShloMosaic Idealize.ShloMosaic.ValueIdx

variable (M K N : Nat)

/-- On its first axis (a free axis) the left operand's index is the output index's first coordinate. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its second axis (the contracted one) the left operand's index is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- On its first axis (the contracted one) the right operand's index is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- On its second axis (a free axis) the right operand's index is the output index's second coordinate. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index (p, q) and contraction position l is (p, l). -/
theorem plain_lhsIdx (p : Fin M) (q : Fin N) (l : Fin K) :
    (DotDims.plain M K N).lhsIdx (ix2 p q) ((contrEquiv1 (DotDims.plain M K N) K rfl rfl).symm l) = ix2 p l :=
  funext fun a => Fin.ext (by
    match a with
    | ⟨0, _⟩ => exact plain_lhs_0 M K N _ _
    | ⟨1, _⟩ => exact (plain_lhs_1 M K N _ _).trans (contrEquiv1_symm_val (DotDims.plain M K N) K rfl rfl l))

/-- The right operand's index at output index (p, q) and contraction position l is (l, q). -/
theorem plain_rhsIdx (p : Fin M) (q : Fin N) (l : Fin K) :
    (DotDims.plain M K N).rhsIdx (ix2 p q) ((contrEquiv1 (DotDims.plain M K N) K rfl rfl).symm l) = ix2 l q :=
  funext fun a => Fin.ext (by
    match a with
    | ⟨0, _⟩ => exact (plain_rhs_0 M K N _ _).trans (contrEquiv1_symm_val (DotDims.plain M K N) K rfl rfl l)
    | ⟨1, _⟩ => exact plain_rhs_1 M K N _ _)

/-- A matrix product M×K by K×N into the zero accumulator is, at (p, q), the sum over l of lhs (p, l) * rhs (l, q). -/
theorem plain_matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ l : Fin K, lhs (ix2 p l) * rhs (ix2 l q) :=
  MatmulSum.matmul_zero_apply_single (DotDims.plain M K N) prec K rfl rfl lhs rhs (ix2 p q) (fun l => ix2 p l) (fun l => ix2 l q)
    (plain_lhsIdx M K N p q) (plain_rhsIdx M K N p q)

/-- The host's product M×K by K×N is, at (p, q), the sum over l of lhs (p, l) * rhs (l, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  MatmulSum.dotGeneral_apply_single (DotDims.plain M K N) prec sched K rfl rfl lhs rhs (ix2 p q) (fun l => ix2 p l) (fun l => ix2 l q)
    (plain_lhsIdx M K N p q) (plain_rhsIdx M K N p q)

end Idealize.ShloMosaic.PlainMatmul

end
-- ==== Proof.RefProduct.lean ====
/-
  The reference's one contraction, read at an entry.

  The reference multiplies the matrix of node features, 100000 by 256, with the weight matrix, 256 by 64. Its dimension
  numbers contract the left factor's second axis with the right factor's first and have no batch axes: they are those of
  the plain matrix product. At the ideal instance entry (r, q) of the product is therefore the sum over the 256
  contracted positions k of x (r, k) * w (k, q).
-/
import proofs.«148235_j15839839387789_2_alg».proof.Proof.RefRun
import proofs.«148235_j15839839387789_2_alg».proof.Proof.LibPlainMatmul

noncomputable section

open scoped BigOperators

namespace Cert.ReferenceIdeal.RefProduct

open Cert.ReferenceIdeal Cert.ReferenceIdeal.Gen Idealize.ShloMosaic Idealize.ShloMosaic.ValueIdx Idealize.ShloMosaic.TcCoe

/-- The reference's dimension numbers are those of the plain product of a 100000 by 256 and a 256 by 64 matrix: the left
    factor's second axis is contracted with the right factor's first, and there are no batch axes. -/
theorem dot_eq_plain : dot_S100000x256_S256x64_S100000x64_1_0_0_1_n_n = DotDims.plain 100000 256 64 := rfl

/-- Entry (r, q) of the product of the node features x with the weight matrix w: the sum over the 256 contracted
    positions k of x (r, k) * w (k, q). The two factors are named, with the equations that say which buffers they are, so that
    the entries on the right are extended reals by their types. -/
theorem xw_apply_of (m : (ℓ : Loc nD τ sig) → Buf (Elt Ideal) ℓ) (c : Dev nD) (r : Fin 100000) (q : Fin 64)
    (x : FVec Ideal S100000x256 .f32) (w : FVec Ideal S256x64 .f32)
    (hx : m ((c.tc : Thread nD τ).loc main_arg0) = x) (hw : m ((c.tc : Thread nD τ).loc main_arg1) = w) :
    Cert.ReferenceIdeal.RefRun.xw (F := Ideal) m c (ix2 r q) = ∑ k : Fin 256, x (ix2 r k) * w (ix2 k q) := by
  subst hx hw
  unfold Cert.ReferenceIdeal.RefRun.xw
  rw [dot_eq_plain]
  exact PlainMatmul.plain_dotGeneral_apply 100000 256 64 none .single _ _ r q

/-- The same with the two buffers read in place: entry (r, q) of the product is the sum over the 256 contracted positions k of
    feature (r, k) times weight (k, q), the product being the extended reals'. -/
theorem xw_apply (m : (ℓ : Loc nD τ sig) → Buf (Elt Ideal) ℓ) (c : Dev nD) (r : Fin 100000) (q : Fin 64) :
    Cert.ReferenceIdeal.RefRun.xw (F := Ideal) m c (ix2 r q) =
      ∑ k : Fin 256, @HMul.hMul EReal EReal EReal instHMul (m ((c.tc : Thread nD τ).loc main_arg0) (ix2 r k))
        (m ((c.tc : Thread nD τ).loc main_arg1) (ix2 k q)) :=
  xw_apply_of m c r q _ _ rfl rfl

end Cert.ReferenceIdeal.RefProduct

end
-- ==== Proof.LibColumnLayout.lean ====
/-
  Column layouts read at an index, and a row sum at the ideal instance.

  A sum over the last axis of an `[a, b]` array taken with the axis kept leaves a column `[a, 1]`. Three re-layings of such a
  column occur around it: the cast of a vector `[a]` to the column `[a, 1]`, the cast of a column `[a, 1]` to the row `[1, a]`
  (the same `a` numbers in the same row-major order), and the broadcast of a column `[a, 1]` along a new second extent to
  `[a, b]`. Each, read at an index, is the operand at the evident index: entry `(i, 0)` of the column is entry `i` of the vector,
  entry `(0, i)` of the row is entry `(i, 0)` of the column, and entry `(p, c)` of the broadcast is entry `(p, 0)` of the column.
  The host's `broadcast_in_dim` of a vector to a column along axis 0 reads the same way.

  On the extended reals a sum along the second axis of an `[a, b]` array, at row `p`, is the sum over `d` of the entries
  `(p, d)` — for a vector reduction and for the host's reduction from an initial value alike.
-/
import Idealize.ShloMosaic.Lib.ValueLayout
import Idealize.ShloMosaic.PureOps.Ideal.Laws

noncomputable section

namespace Cert.LibColumnLayout

open Idealize.ShloMosaic Idealize.ShloMosaic.ValueIdx

variable {α : Type}

/-! ## A vector as a column, a column as a row, a column broadcast along rows -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to the row `[1, a]` reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an `[a]` array to the column `[a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A sum along the second axis, on the extended reals -/

/-- A vector reduction by addition along the second axis of an `[a, b]` array, at row `p`: the sum of that row. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) : multiReduction .add [1] ⟨1, ![a]⟩ src acc h hφ hacc (ix1 p) = ∑ d : Fin b, src (ix2 p d) := by
  refine (Ideal.multiReduction_add_single src acc h hφ hacc (ix1 p)).trans ?_
  refine Finset.sum_congr rfl fun d _ => congrArg src ?_
  funext ax; apply Fin.ext
  match ax with
  | ⟨0, _⟩ => rfl
  | ⟨1, _⟩ => rfl

/-- The host's reduction by addition along the second axis from an initial value, at row `p`: the initial value plus the
    sum of that row. -/
theorem hostReduceAdd_rows_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ d : Fin b, x (ix2 p d) := by
  refine (Ideal.hostReduceAdd_single h' h x init (ix1 p)).trans ?_
  refine congrArg (init + ·) (Finset.sum_congr rfl fun d _ => congrArg x ?_)
  funext ax; apply Fin.ext
  match ax with
  | ⟨0, _⟩ => rfl
  | ⟨1, _⟩ => rfl

end Cert.LibColumnLayout

end
-- ==== Proof.PallasPayload.lean ====
/-
  The kernel's arithmetic on one row block, read at one entry.

  On a block of 5000 rows the kernel multiplies the block of node features, 5000 by 256, with the whole weight matrix,
  256 by 64, starting from the zero accumulator, and then multiplies every row of the product by that row's entry of the
  block of the normalisation column, 5000 by 1, spread along the 64 output features. At the ideal instance the
  conversions of the two factors to the shorter float format change nothing, and the product into the zero accumulator is
  the plain sum over the 256 contracted positions. So entry (p, q) of what the kernel stores for the block is

      col (p, 0) * ∑ k < 256, x (p, k) * w (k, q).
-/
import proofs.«148235_j15839839387789_2_alg».proof.Proof.Gen.KernelIdeal.Skeleton
import proofs.«148235_j15839839387789_2_alg».proof.Proof.LibPlainMatmul
import proofs.«148235_j15839839387789_2_alg».proof.Proof.LibColumnLayout
import Idealize.ShloMosaic.Lib.Pipeline.Value

noncomputable section

namespace Cert.KernelIdeal.PallasOut

open Cert.KernelIdeal Cert.KernelIdeal.Gen Idealize.ShloMosaic Idealize.ShloMosaic.ValueIdx

/-- The kernel's dimension numbers are those of the plain product of a 5000 by 256 and a 256 by 64 matrix: the left
    factor's second axis is contracted with the right factor's first, and there are no batch axes. -/
theorem dot_eq_plain : dot_S5000x256_S256x64_S5000x64_1_0_0_1_n_n = DotDims.plain 5000 256 64 := rfl

/-- Entry (p, q) of the block the kernel stores: the p-th entry of the column block times the product of row p of the
    feature block with column q of the weight matrix. -/
theorem payload_apply (x0 : Vec Ideal S5000x256 .f32) (x1 : Vec Ideal S256x64 .f32) (x2 : Vec Ideal S5000x1 .f32)
    (p : Fin 5000) (q : Fin 64) :
    k0_pay1 (F := Ideal) x0 x1 x2 (ix2 p q) = x2 (ix2 p (0 : Fin 1)) * ∑ k : Fin 256, x0 (ix2 p k) * x1 (ix2 k q) := by
  unfold k0_pay1
  refine (mulf_apply (s := S5000x64) (φ := .f32) _ _ (ix2 p q)).trans ?_
  refine congrArg₂ (· * ·) ?_ ?_
  · refine (Cert.LibColumnLayout.broadcastTo_a1_ab_apply _ broadcasts_S5000x1_S5000x64 p q).trans ?_
    exact congrFun (shapeCast_self x2 shapeCasts_S5000x1_S5000x1) (ix2 p (0 : Fin 1))
  · exact PlainMatmul.plain_matmul_zero_apply 5000 256 64 none
      (truncf .bf16 (x0 : FVec Ideal S5000x256 .f32) bitsLt_bf16_f32) (truncf .bf16 (x1 : FVec Ideal S256x64 .f32) bitsLt_bf16_f32) p q

end Cert.KernelIdeal.PallasOut

end
-- ==== Proof.PallasBlocks.lean ====
/-
  The blocks the kernel's region hands to its body, as rows of the whole arrays.

  The region walks 20 row blocks of 5000 rows. At block t the body is handed rows 5000 t … 5000 t + 4999 of the feature
  matrix (all 256 columns), the whole 256 by 64 weight matrix, and rows 5000 t … 5000 t + 4999 of the one-column
  normalisation array. Entry (p, q) of what the body computes from them depends only on row p of the feature block,
  column q of the weights and entry p of the column block, all of which sit at row 5000 t + p of the whole arrays: it is
  the value at (5000 t + p, q) of ONE function of the three whole arrays, `scaledProduct`.
-/
import proofs.«148235_j15839839387789_2_alg».proof.Proof.Gen.KernelIdeal.Frame
import proofs.«148235_j15839839387789_2_alg».proof.Proof.PallasPayload
import Idealize.ShloMosaic.Lib.Pipeline.Value

noncomputable section

namespace Cert.KernelIdeal.PallasOut

open Cert.KernelIdeal Cert.KernelIdeal.Gen Idealize.ShloMosaic Idealize.ShloMosaic.TcCoe Idealize.SL.Sem
open Idealize.ShloMosaic.ValueIdx
open Idealize.ShloMosaic.Pipeline (Dat)

/-- The scaled product: row `p 0` of `x @ w`, at column `p 1`, times the `p 0`-th entry of the column. -/
def scaledProduct (x : S100000x256.Idx → EReal) (w : S256x64.Idx → EReal) (col : S100000x1.Idx → EReal) :
    S100000x64.Idx → EReal :=
  fun p => col (ix2 (p 0) (0 : Fin 1)) * ∑ k : Fin 256, x (ix2 (p 0) k) * w (ix2 k (p 1))

/-- Where each window's block sits at grid point `t`: the features', the column's and the result's blocks are the
    `t`-th along the rows and the only one along the columns; the weights' block is always the whole matrix. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## A block read, for ANY contents of the array

Each of the three statements is about where a block's entry sits in its array, whatever the array holds. -/

/-- Entry `y` of the feature window's block at point `t` is the array at row `5000 t + y 0`, column `y 1`. -/
theorem features_read (t : Fin cfg0.N) (A : S100000x256.Idx → EReal) (y : S5000x256.Idx) (i : S100000x256.Idx)
    (h0 : (i 0).val = t.val * 5000 + (y 0).val) (h1 : (i 1).val = (y 1).val) :
    ((cfg0.win 0).blk t).view.read (Elt Ideal) A y = A i := by
  obtain ⟨e0, e1, -⟩ := block_index t
  rw [View.read_apply]
  show A _ = A i
  refine congrArg A ?_
  funext a
  apply Fin.ext
  match a with
  | ⟨0, _⟩ => show win0_0.index t (0 : Fin 2) * 5000 + 1 * (y 0).val = (i 0).val; rw [e0, h0]; omega
  | ⟨1, _⟩ => show win0_0.index t (1 : Fin 2) * 256 + 1 * (y 1).val = (i 1).val; rw [e1, h1]; omega

/-- The weight window's block at every point is the array itself. -/
theorem weights_read (t : Fin cfg0.N) (A : S256x64.Idx → EReal) (y : S256x64.Idx) (i : S256x64.Idx)
    (h0 : (i 0).val = (y 0).val) (h1 : (i 1).val = (y 1).val) :
    ((cfg0.win 1).blk t).view.read (Elt Ideal) A y = A i := by
  obtain ⟨-, -, e0, e1, -⟩ := block_index t
  rw [View.read_apply]
  show A _ = A i
  refine congrArg A ?_
  funext a
  apply Fin.ext
  match a with
  | ⟨0, _⟩ => show win0_1.index t (0 : Fin 2) * 256 + 1 * (y 0).val = (i 0).val; rw [e0, h0]; omega
  | ⟨1, _⟩ => show win0_1.index t (1 : Fin 2) * 64 + 1 * (y 1).val = (i 1).val; rw [e1, h1]; omega

/-- Entry `y` of the column window's block at point `t` is the array at row `5000 t + y 0`. -/
theorem column_read (t : Fin cfg0.N) (A : S100000x1.Idx → EReal) (y : S5000x1.Idx) (i : S100000x1.Idx)
    (h0 : (i 0).val = t.val * 5000 + (y 0).val) (h1 : (i 1).val = (y 1).val) :
    ((cfg0.win 2).blk t).view.read (Elt Ideal) A y = A i := by
  obtain ⟨-, -, -, -, e0, e1, -⟩ := block_index t
  rw [View.read_apply]
  show A _ = A i
  refine congrArg A ?_
  funext a
  apply Fin.ext
  match a with
  | ⟨0, _⟩ => show win0_2.index t (0 : Fin 2) * 5000 + 1 * (y 0).val = (i 0).val; rw [e0, h0]; omega
  | ⟨1, _⟩ => show win0_2.index t (1 : Fin 2) * 1 + 1 * (y 1).val = (i 1).val; rw [e1, h1]; omega

/-- Entry `j` of the result window's block at point `t`, read off any array, is the array at the block's `j`-th place. -/
theorem result_read (t : Fin cfg0.N) (G : S100000x64.Idx → EReal) (j : ((cfg0.win 3).xblock (grid0.coords t)).Idx) :
    ((cfg0.win 3).blk t).view.read (Elt Ideal) G j = G (((cfg0.win 3).blk t).view.emb j) := by
  rw [View.read_apply]
  rfl

/-! ## The blocks of the arrays as the region finds them -/

variable (m : (ℓ : Loc nD τ sig) → Buf (Elt Ideal) ℓ)

theorem features_block_apply (c : Dev nD) (t : Fin cfg0.N) (y : S5000x256.Idx) (i : S100000x256.Idx)
    (h0 : (i 0).val = t.val * 5000 + (y 0).val) (h1 : (i 1).val = (y 1).val) :
    (iblk m c 0 t : Vec Ideal S5000x256 .f32) y = (V m c main_arg0 : S100000x256.Idx → EReal) i := by
  unfold iblk
  exact features_read t (V m c (Pipeline.arrRef spec0 0)) y i h0 h1

theorem weights_block_apply (c : Dev nD) (t : Fin cfg0.N) (y : S256x64.Idx) (i : S256x64.Idx)
    (h0 : (i 0).val = (y 0).val) (h1 : (i 1).val = (y 1).val) :
    (iblk m c 1 t : Vec Ideal S256x64 .f32) y = (V m c main_arg1 : S256x64.Idx → EReal) i := by
  unfold iblk
  exact weights_read t (V m c (Pipeline.arrRef spec0 1)) y i h0 h1

theorem column_block_apply (c : Dev nD) (t : Fin cfg0.N) (y : S5000x1.Idx) (i : S100000x1.Idx)
    (h0 : (i 0).val = t.val * 5000 + (y 0).val) (h1 : (i 1).val = (y 1).val) :
    (iblk m c 2 t : Vec Ideal S5000x1 .f32) y = (V m c main_v15 : S100000x1.Idx → EReal) i := by
  unfold iblk
  exact column_read t (V m c (Pipeline.arrRef spec0 2)) y i h0 h1

/-- What the body computes from the three blocks at point `t`, at entry `y` of the block, is the scaled product of
    the three whole arrays at row `5000 t + y 0`, column `y 1`. -/
theorem block_entry (c : Dev nD) (t : Fin cfg0.N) (y : S5000x64.Idx) (i : S100000x64.Idx)
    (h0 : (i 0).val = t.val * 5000 + (y 0).val) (h1 : (i 1).val = (y 1).val) :
    k0_pay1 (F := Ideal) (iblk m c 0 t) (iblk m c 1 t) (iblk m c 2 t) y
      = scaledProduct (V m c main_arg0) (V m c main_arg1) (V m c main_v15) i := by
  obtain ⟨p, q, rfl⟩ : ∃ (p : Fin 5000) (q : Fin 64), y = ix2 p q := ⟨y 0, y 1, eq_ix2 y⟩
  refine (payload_apply (iblk m c 0 t) (iblk m c 1 t) (iblk m c 2 t) p q).trans ?_
  unfold scaledProduct
  refine congrArg₂ (· * ·) (column_block_apply m c t (ix2 p (0 : Fin 1)) (ix2 (i 0) (0 : Fin 1)) h0 rfl)
    (Finset.sum_congr rfl fun k _ => congrArg₂ (· * ·)
      (features_block_apply m c t (ix2 p k) (ix2 (i 0) k) h0 rfl)
      (weights_block_apply m c t (ix2 k q) (ix2 k (i 1)) rfl h1))

end Cert.KernelIdeal.PallasOut

end
-- ==== Proof.PallasOut.lean ====
/-
  The array the kernel's region leaves: every row of the product of the features with the weights, scaled by that
  row's entry of the normalisation column.

  At block t of its 20 row blocks the region writes rows 5000 t … 5000 t + 4999 of the result (all 64 columns), and what
  it writes is the restriction to those rows of `scaledProduct` of the three whole arrays. Row r lies in block
  r / 5000, so the 20 blocks cover the 100000 rows, and the result array ends holding `scaledProduct` of the feature
  matrix, the weight matrix and the normalisation column as the region found them.
-/
import proofs.«148235_j15839839387789_2_alg».proof.Proof.PallasBlocks

noncomputable section

namespace Cert.KernelIdeal.PallasOut

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- WHAT POINT `t` WRITES BACK is block `t` of the scaled product of the three arrays as the region finds them. -/
theorem flushed_eq (c : Dev nD) (t : Fin cfg0.N) :
    (dats (F := Ideal) m 0 c).flushed 3 t
      = ((cfg0.win 3).blk t).view.read (Elt Ideal)
          (scaledProduct (V m c main_arg0) (V m c main_arg1) (V m c main_v15)) := by
  show (cfg0.win 3).cut (grid0.coords t) ((dats m 0 c).after 3 t) = _
  rw [after0_3]
  unfold out0_3
  rw [View.canon_unit_zero zero_offsets]
  simp only [View.ld_unit_zero (S := S5000x256) zero_offsets, View.ld_unit_zero (S := S256x64) zero_offsets,
    View.ld_unit_zero (S := S5000x1) zero_offsets]
  obtain ⟨-, -, -, -, -, -, e0, e1⟩ := block_index t
  funext j
  refine Eq.trans ?_ (result_read t (scaledProduct (V m c main_arg0) (V m c main_arg1) (V m c main_v15)) j).symm
  refine block_entry m c t ((cfg0.win 3).xinj (grid0.coords t) j) (((cfg0.win 3).blk t).view.emb j) ?_ ?_
  · show win0_3.index t (0 : Fin 2) * 5000 + 1 * (j 0).val = t.val * 5000 + (j 0).val
    rw [e0]; omega
  · show win0_3.index t (1 : Fin 2) * 64 + 1 * (j 1).val = (j 1).val
    rw [e1]; omega

/-- An index of the result array is in point `t`'s block iff each coordinate is in the block's range on its axis. -/
theorem mem_block (t : Fin cfg0.N) (i : S100000x64.Idx) :
    i ∈ ((cfg0.win 3).blk t).view.set
      ↔ ∀ a : Fin 2, win0_3.index t a * S5000x64.size a ≤ (i a).val
          ∧ (i a).val < win0_3.index t a * S5000x64.size a + S5000x64.size a := by
  show i ∈ ((View.whole main_v16).slice (win0_3.rect t)).set ↔ _
  rw [View.set_slice_whole, Rect.mem_set_unit]
  exact Iff.rfl

/-- Row `r` of the result is written by point `r / 5000`: the 20 blocks cover the array. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  have hlt : (i 0).val / 5000 < cfg0.N := by rw [hN]; omega
  refine ⟨⟨(i 0).val / 5000, hlt⟩, flush0_3 _, ?_⟩
  rw [mem_block]
  obtain ⟨-, -, -, -, -, -, e0, e1⟩ := block_index ⟨(i 0).val / 5000, hlt⟩
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_3.index ⟨(i 0).val / 5000, hlt⟩ (1 : Fin 2) * 64 ≤ (i 1).val
      ∧ (i 1).val < win0_3.index ⟨(i 0).val / 5000, hlt⟩ (1 : Fin 2) * 64 + 64
    rw [e1]; omega

/-- THE RESULT ARRAY after the region: the scaled product of the feature matrix, the weight matrix and the
    normalisation column as the region finds them. -/
theorem region_out (c : Dev nD) :
    (dats (F := Ideal) m 0 c).arrAt 3 cfg0.N
      = scaledProduct (V m c main_arg0) (V m c main_arg1) (V m c main_v15) :=
  (dats m 0 c).arrAt_eq_of_cover 3 (scaledProduct (V m c main_arg0) (V m c main_arg1) (V m c main_v15))
    (fun t _ => flushed_eq m c t) cover

end Cert.KernelIdeal.PallasOut

end
-- ==== Proof.GcnFactor.lean ====
/-
  The normalisation factor of the graph-convolution layer is a non-negative extended real other than `+∞`, and such a
  factor moves across a finite sum on the extended reals.

  The factor of a node is `deg ^ (-1/2)` when its degree is positive and zero otherwise.  Whatever extended real the
  degree is, this is `≥ 0` and not `+∞`: at `+∞` the reciprocal square root is `0`, at a positive real it is the reciprocal
  of a positive square root, and everywhere else the comparison selects `0`.  On the extended reals
  `x · (y + z) = x · y + x · z` can fail when `y` and `z` are infinities of opposite signs, but it holds for every `y, z`
  when `0 ≤ x < +∞`; so for such an `x` the product with a finite sum is the sum of the products, with no condition on
  the summands.
-/
import proofs.«148235_j15839839387789_2_alg».proof.Proof.GcnSpec
import Idealize.ShloMosaic.PureOps.Ideal.Laws
import Idealize.ShloMosaic.Lib.Pipeline.Value

noncomputable section

open scoped BigOperators

namespace Cert.Gcn

open Idealize.ShloMosaic Idealize.ShloMosaic.ValueIdx

/-- A non-negative extended real other than `+∞` distributes over any finite sum. -/
theorem mul_sum_of_nonneg_ne_top {ι : Type} (s : Finset ι) (f : ι → EReal) {x : EReal} (h0 : 0 ≤ x) (ht : x ≠ ⊤) :
    x * ∑ j ∈ s, f j = ∑ j ∈ s, x * f j := by
  classical
  induction s using Finset.induction_on with
  | empty => simp
  | insert a s ha ih =>
    rw [Finset.sum_insert ha, Finset.sum_insert ha, EReal.left_distrib_of_nonneg_of_ne_top h0 ht, ih]

/-- A scalar constant repeated over any shape reads, at every index, the number its word denotes. -/
theorem splat_apply {t : Shape} (h : S0.BroadcastsInDim t (![] : Fin 0 → Fin t.rank)) (w : BitVec 32) (i : t.Idx) :
    broadcastInDim t ![] h (constant (F := Ideal) S0 .f32 w) i = Ideal.ofBits .f32 w :=
  (broadcastInDim_apply _ h _ i ix0 (fun a => a.elim0)).trans (constant_apply (s := S0) (φ := .f32) w ix0)

/-- The all-zero node vector is zero at every node. -/
theorem zerosN_apply (i : VN.Idx) :
    (broadcastInDim VN ![] b_0_N (constant (F := Ideal) S0 .f32 0x00000000#32) : FVec Ideal VN .f32) i = 0 :=
  (splat_apply b_0_N _ i).trans Ideal.ofBits_zero_f32

/-- The comparison and the reciprocal square root of the layer are the extended reals'. -/
theorem gt_apply (x y : EReal) : FloatOps.cmpf (F := Ideal) (φ := .f32) .ogt x y = Ideal.cmp .ogt x y := rfl
theorem rsqrt_apply (d : FVec Ideal VN .f32) (i : VN.Idx) : Host.rsqrt d i = Ideal.rsqrt (d i) := rfl

/-- The factor of a degree array at a node: the comparison with zero selects the reciprocal square root or zero. -/
theorem factor_apply (d : FVec Ideal VN .f32) (i : VN.Idx) :
    (select (cmpf .ogt d (broadcastInDim VN ![] b_0_N (constant (F := Ideal) S0 .f32 0x00000000#32)))
      (Host.rsqrt d) (broadcastInDim VN ![] b_0_N (constant (F := Ideal) S0 .f32 0x00000000#32))) i
      = Scalar.select (Ideal.cmp .ogt (d i) 0) (Ideal.rsqrt (d i)) 0 := by
  rw [select_apply, cmpf_apply, zerosN_apply, gt_apply, rsqrt_apply]

/-- "The reciprocal square root where positive, else zero" is `≥ 0` and not `+∞` at every extended real. -/
theorem factor_nonneg_ne_top (x : EReal) :
    0 ≤ Scalar.select (Ideal.cmp .ogt x 0) (Ideal.rsqrt x) 0 ∧ Scalar.select (Ideal.cmp .ogt x 0) (Ideal.rsqrt x) 0 ≠ ⊤ := by
  by_cases h : 0 < x
  · have hc : Ideal.cmp .ogt x 0 = 1#1 := by simp [Ideal.cmp, h]
    rw [hc, select_one]
    induction x using EReal.rec with
    | bot => exact absurd h (by simp)
    | top => rw [Ideal.rsqrt_top]; exact ⟨le_rfl, EReal.zero_ne_top⟩
    | coe r =>
      have hr : 0 < r := by exact_mod_cast h
      rw [Ideal.rsqrt_coe, if_neg (not_lt.2 hr.le), if_neg hr.ne']
      exact ⟨by exact_mod_cast inv_nonneg.2 (Real.sqrt_nonneg r), EReal.coe_ne_top _⟩
  · have hc : Ideal.cmp .ogt x 0 = 0#1 := by simp [Ideal.cmp, h]
    rw [hc, select_zero]
    exact ⟨le_rfl, EReal.zero_ne_top⟩

/-- The factor of every node is `≥ 0` and not `+∞`. -/
theorem dinv_nonneg_ne_top (dst : IVec VE 32) (i : VN.Idx) :
    0 ≤ dinv (F := Ideal) dst i ∧ dinv (F := Ideal) dst i ≠ ⊤ := by
  unfold dinv
  rw [factor_apply]
  exact factor_nonneg_ne_top _

end Cert.Gcn

end
-- ==== Proof.LibRowGatherScatter.lean ====
/-
  Gathers and scatters OF ROWS, read at an index.

  For a table x : [N, C] (or a vector x : [N]) and a column of start words idx : [E, 1], the gather that
  x[idx] lowers to reads, at result element (e, c), the table at row r(e) and column c, where r(e) is the start word
  idx[e, 0] read as a signed integer and clamped into [0, N - 1]. The scatter of rows that a segment sum lowers to sends
  update element (e, c) to operand element (r, c), where r is the start word idx[e, 0] read as a signed integer and
  NOT clamped: the update is dropped when r is outside [0, N - 1].
-/
import Idealize.ShloMosaic.Lib.ValueIdx

noncomputable section

namespace Cert.LibRowGatherScatter

open Idealize.ShloMosaic Idealize.ShloMosaic.ValueIdx

/-! ## The row a start word selects -/

/-- The row a start word selects in a gather over N rows: the word read as a signed integer, clamped into
    [0, N - 1] (a negative word selects row 0, a word past the end the last row). -/
def clampRow {w : Nat} (N : Nat) (hN : 0 < N) (z : BitVec w) : Fin N := ⟨min z.toInt.toNat (N - 1), by omega⟩

/-- The selected row as a natural number. -/
theorem clampRow_val {w : Nat} (N : Nat) (hN : 0 < N) (z : BitVec w) :
    (clampRow N hN z).val = min z.toInt.toNat (N - 1) := rfl

/-- A start word whose signed value is a row number selects that row: the clamp does nothing inside the range. -/
theorem clampRow_of_toInt_eq {w N : Nat} (hN : 0 < N) (z : BitVec w) (r : Fin N) (h : z.toInt = (r.val : Int)) :
    clampRow N hN z = r := by
  refine Fin.ext ?_
  rw [clampRow_val, h, Int.toNat_natCast]
  have := r.isLt
  omega

/-! ## The gather of rows of a table -/

section Gather
variable {α : Type}

/-- The dimension numbers of x[idx] for a table x : [N, C] and start words idx : [E, 1], result [E, C]: the
    row axis is collapsed and is the one axis the start index names, the column axis is the one offset axis, a slice
    is one whole row. Their conditions wf are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The operand index that result element (e, c) reads: the row the start word idx[e, 0] selects, column c. -/
theorem rowGather_operandIdx {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx = ix2 (clampRow N hN (idx (ix2 e (0 : Fin 1)))) c := by
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    unfold GatherDims.start
    rw [dif_neg (show (1 : Fin 2) ∉ (rowGatherDims N E C wf).startIndexMap from
      fun h => absurd (List.mem_singleton.mp h) (show (1 : Fin 2) ≠ 0 by decide))]
    simp only [Nat.add_zero, Nat.zero_add]
    rfl

/-- THE GATHER OF ROWS READ AT (e, c): the table at the row the start word idx[e, 0] selects (read signed and
    clamped into [0, N - 1]) and column c. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (clampRow N hN (idx (ix2 e (0 : Fin 1)))) c) := by
  unfold Host.gather
  rw [rowGather_operandIdx hN]

/-! ## The gather of entries of a vector -/

/-- The dimension numbers of x[idx] for a vector x : [N] and start words idx : [E, 1], result [E]: the one
    operand axis is collapsed and named by the start index, there is no offset axis, a slice is one entry. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The operand index that result element e reads: the entry the start word idx[e, 0] selects. -/
theorem vecGather_operandIdx {N E w : Nat} (hN : 0 < N)
    (wf : GatherDims.WF ⟨1, ![N]⟩ ⟨2, ![E, 1]⟩ ⟨1, ![E]⟩ [] [0] [] [0] [] 1 ![1])
    (idx : IVec ⟨2, ![E, 1]⟩ w) (e : Fin E) :
    (vecGatherDims N E wf).operandIdx (ix1 e) idx = ix1 (clampRow N hN (idx (ix2 e (0 : Fin 1)))) := by
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE GATHER OF ENTRIES READ AT e: the vector at the entry the start word idx[e, 0] selects (read signed and
    clamped into [0, N - 1]). -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  rw [vecGather_operandIdx hN]

end Gather

/-! ## The scatter of rows into a table -/

section Scatter

/-- The dimension numbers of a scatter of rows: updates u : [E, C] into a table [N, C] at start words
    idx : [E, 1]. The column axis of the updates is the one window axis, the row axis of the table is inserted and
    is the one axis the start index names. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (j : (⟨2, ![E, C]⟩ : Shape).Idx)

/-- On the row axis the window of update element (e, c) starts at the start word idx[e, 0] read signed. -/
theorem rowScatter_start_row :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at 0: the start index does not name that axis. -/
theorem rowScatter_start_col : (rowScatterDims N E C wf).start j idx 1 = 0 := by
  unfold ScatterDims.start
  rw [dif_neg (show (1 : Fin 2) ∉ (rowScatterDims N E C wf).scatterDimsToOperandDims from
    fun h => absurd (List.mem_singleton.mp h) (show (1 : Fin 2) ≠ 0 by decide))]

/-- The row axis is inserted: the window coordinate there is 0. -/
theorem rowScatter_window_row : (rowScatterDims N E C wf).window j 0 = 0 := by
  unfold ScatterDims.window
  rw [dif_neg (show (0 : Fin 2) ∉ (rowScatterDims N E C wf).sKept from
    fun h => (of_decide_eq_true (List.mem_filter.mp h).2) (List.mem_singleton.mpr rfl))]

/-- On the column axis the window coordinate is the update's column. -/
theorem rowScatter_window_col : (rowScatterDims N E C wf).window j 1 = (j 1).val := rfl

/-- WHERE AN UPDATE LANDS: if update element j = (e, c) lands at operand element i = (r, c'), then the start word
    idx[e, 0], read signed, is r, and c' = c. -/
theorem rowScatter_resultIdx_eq_some (i : (⟨2, ![N, C]⟩ : Shape).Idx)
    (h : (rowScatterDims N E C wf).resultIdx? j idx = some i) :
    (idx (ix2 (j 0) (0 : Fin 1))).toInt = ((i 0).val : Int) ∧ (i 1).val = (j 1).val := by
  unfold ScatterDims.resultIdx? at h
  split at h
  · rename_i hall
    injection h with h
    subst h
    have h0 := hall 0
    rw [rowScatter_start_row, rowScatter_window_row] at h0
    constructor
    · show _ = ((((rowScatterDims N E C wf).start j idx 0 + ((rowScatterDims N E C wf).window j 0 : Nat)).toNat : Nat) : Int)
      rw [rowScatter_start_row, rowScatter_window_row]
      omega
    · show ((rowScatterDims N E C wf).start j idx 1 + ((rowScatterDims N E C wf).window j 1 : Nat)).toNat = _
      rw [rowScatter_start_col, rowScatter_window_col]
      omega
  · exact absurd h (by simp)

/-- WHERE AN UPDATE LANDS, both ways: update element j = (e, c) lands at operand element i = (r, c') exactly when the
    start word idx[e, 0], read signed, is r, and c' = c. -/
theorem rowScatter_resultIdx_eq_some_iff (i : (⟨2, ![N, C]⟩ : Shape).Idx) :
    (rowScatterDims N E C wf).resultIdx? j idx = some i ↔
      (idx (ix2 (j 0) (0 : Fin 1))).toInt = ((i 0).val : Int) ∧ (i 1).val = (j 1).val := by
  constructor
  · exact rowScatter_resultIdx_eq_some wf idx j i
  · rintro ⟨hr, hc⟩
    have hi0 := idx2_lt0 i
    have hj1 := idx2_lt1 j
    unfold ScatterDims.resultIdx?
    split
    · congr 1
      funext a
      refine Fin.ext ?_
      match a with
      | ⟨0, _⟩ =>
        show ((rowScatterDims N E C wf).start j idx 0 + ((rowScatterDims N E C wf).window j 0 : Nat)).toNat = (i 0).val
        rw [rowScatter_start_row, rowScatter_window_row, hr]
        omega
      | ⟨1, _⟩ =>
        show ((rowScatterDims N E C wf).start j idx 1 + ((rowScatterDims N E C wf).window j 1 : Nat)).toNat = (i 1).val
        rw [rowScatter_start_col, rowScatter_window_col, hc]
        omega
    · rename_i hnot
      refine absurd (fun a => ?_) hnot
      match a with
      | ⟨0, _⟩ =>
        show 0 ≤ (rowScatterDims N E C wf).start j idx 0 + ((rowScatterDims N E C wf).window j 0 : Nat) ∧
          (rowScatterDims N E C wf).start j idx 0 + ((rowScatterDims N E C wf).window j 0 : Nat) < (N : Int)
        rw [rowScatter_start_row, rowScatter_window_row, hr]
        omega
      | ⟨1, _⟩ =>
        show 0 ≤ (rowScatterDims N E C wf).start j idx 1 + ((rowScatterDims N E C wf).window j 1 : Nat) ∧
          (rowScatterDims N E C wf).start j idx 1 + ((rowScatterDims N E C wf).window j 1 : Nat) < (C : Int)
        rw [rowScatter_start_col, rowScatter_window_col]
        omega

/-- An update whose start word, read signed, is the row number r lands in row r, in its own column. -/
theorem rowScatter_resultIdx_of_toInt_eq (r : Fin N) (h : (idx (ix2 (j 0) (0 : Fin 1))).toInt = (r.val : Int)) :
    (rowScatterDims N E C wf).resultIdx? j idx = some (ix2 r ⟨(j 1).val, idx2_lt1 j⟩) :=
  (rowScatter_resultIdx_eq_some_iff wf idx j _).2 ⟨h, rfl⟩

/-- An update whose start word, read signed, is negative or at least N is dropped. -/
theorem rowScatter_resultIdx_eq_none
    (h : (idx (ix2 (j 0) (0 : Fin 1))).toInt < 0 ∨ (N : Int) ≤ (idx (ix2 (j 0) (0 : Fin 1))).toInt) :
    (rowScatterDims N E C wf).resultIdx? j idx = none := by
  cases hopt : (rowScatterDims N E C wf).resultIdx? j idx with
  | none => rfl
  | some i =>
    have h0 := (rowScatter_resultIdx_eq_some wf idx j i hopt).1
    have hi0 := idx2_lt0 i
    omega

end Scatter

end Cert.LibRowGatherScatter

end
-- ==== Proof.LibColumnBroadcast.lean ====
/-
  A vector laid along a column and repeated over the columns.

  `broadcast_in_dim` applied twice, [n] -> [n, 1] (the vector becomes a column) and [n, 1] -> [n, c] (the column is
  repeated c times): entry (k, q) of the result is entry k of the vector, whatever the column q.  This is how
  `v[:, None] * M` scales the rows of a matrix M by a vector v.
-/
import Idealize.ShloMosaic.Lib.Pipeline.Value
import Idealize.ShloMosaic.Lib.ValueIdx

namespace Cert.Lib

open Idealize.ShloMosaic Idealize.ShloMosaic.ValueIdx

/-- Entry (k, q) of a length-n vector broadcast to a column [n, 1] and then to [n, c] is the vector's entry k.
    Holds for every n and c (for n = 1 the only index is 0 on both sides). -/
theorem broadcastInDim_column_apply {α : Type} {n c : ℕ} (v : (⟨1, ![n]⟩ : Shape).Idx → α)
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2))
    (k : Fin n) (q : Fin c) :
    broadcastInDim ⟨2, ![n, c]⟩ ![0, 1] h2 (broadcastInDim ⟨2, ![n, 1]⟩ ![0] h1 v) (ix2 k q) = v (ix1 k) := by
  refine (broadcastInDim_apply _ h2 _ (ix2 k q) (ix2 k (0 : Fin 1)) fun a => ?_).trans
    (broadcastInDim_apply _ h1 v (ix2 k (0 : Fin 1)) (ix1 k) fun a => ?_)
  · match a with
    | ⟨0, _⟩ =>
      show k.val = if n = 1 then 0 else k.val
      split
      · have := k.isLt; omega
      · rfl
    | ⟨1, _⟩ =>
      show (0 : ℕ) = if (1 : ℕ) = 1 then 0 else q.val
      rw [if_pos rfl]
  · match a with
    | ⟨0, _⟩ =>
      show k.val = if n = 1 then 0 else k.val
      split
      · have := k.isLt; omega
      · rfl

end Cert.Lib
-- ==== Proof.GcnLaw.lean ====
/-
  The two arrangements of the graph-convolution layer are one function.

  Fix a node `r` and a feature `c`.  Both arrangements sum over the same set of (edge, feature) pairs: those whose
  destination word, read as a signed integer, is `r` and whose feature is `c`.  For such a pair `(e, c)` let `s` be the
  row the source word of `e` selects (wrapped when negative, then clamped into the node range).
    Arrangement two has the term  `dinv r · (dinv s · xw (s, c))`  after the factor `dinv r`, a non-negative real,
  is moved inside the sum.
    Arrangement one has the term  `xw (s, c) · (dinv s · dinv t)`  where `t` is the row the destination word selects; the
  destination word is `r`, not negative and inside the range, so wrapping and clamping leave it alone and `t = r`.
  The two terms agree by commutativity and associativity of the product; the bias is added to both.
-/
import proofs.«148235_j15839839387789_2_alg».proof.Proof.GcnSpec
import proofs.«148235_j15839839387789_2_alg».proof.Proof.GcnFactor
import proofs.«148235_j15839839387789_2_alg».proof.Proof.LibRowGatherScatter
import proofs.«148235_j15839839387789_2_alg».proof.Proof.LibColumnLayout
import proofs.«148235_j15839839387789_2_alg».proof.Proof.LibColumnBroadcast
import Idealize.ShloMosaic.Lib.Pipeline.Value
import Idealize.ShloMosaic.PureOps.Ideal.Laws

noncomputable section

open scoped BigOperators

namespace Cert.Gcn

open Idealize.ShloMosaic Idealize.ShloMosaic.ValueIdx Cert.LibRowGatherScatter

theorem nodes_pos : 0 < 100000 := by decide

/-- The row of the node table a start word selects. -/
abbrev rowOf (z : BitVec 32) : Fin 100000 := clampRow 100000 nodes_pos z

/-! ## The layout operations of the layer at an index -/

/-- A row taken per edge: entry `(e, q)` is the table's entry `(row selected by the start word of e, q)`. -/
theorem takeRow_apply {α : Type} (x : MNC.Idx → α) (idx : IVec ME1 32) (e : Fin 3300000) (q : Fin 64) :
    Host.gather takeRowAtNode x idx (ix2 e q) = x (ix2 (rowOf (idx (ix2 e (0 : Fin 1)))) q) :=
  rowGather_apply nodes_pos takeRowAtNode.wf x idx e q

/-- A number taken per edge: entry `e` is the vector's entry at the row selected by the start word of `e`. -/
theorem takeAt_apply {α : Type} (x : VN.Idx → α) (idx : IVec ME1 32) (e : Fin 3300000) :
    Host.gather takeAtNode x idx (ix1 e) = x (ix1 (rowOf (idx (ix2 e (0 : Fin 1))))) :=
  vecGather_apply nodes_pos takeAtNode.wf x idx e

/-- An update `(e, q)` that lands on `(r, c)` has start word `r`. -/
theorem lands_row (idx : IVec ME1 32) (e : Fin 3300000) (q : Fin 64) (r : Fin 100000) (c : Fin 64)
    (h : sumRowsToNode.resultIdx? (ix2 e q) idx = some (ix2 r c)) : (idx (ix2 e (0 : Fin 1))).toInt = (r.val : Int) :=
  (rowScatter_resultIdx_eq_some sumRowsToNode.wf idx (ix2 e q) (ix2 r c) h).1

/-- The column of start words at `(e, 0)` is the index vector at `e`. -/
theorem col_apply (v : IVec VE 32) (e : Fin 3300000) : col v (ix2 e (0 : Fin 1)) = v (ix1 e) :=
  Cert.LibColumnLayout.broadcastInDim_a_a1_apply v b_E_E1 e 0

/-- A per-edge number repeated over the features. -/
theorem perEdge_apply {α : Type} (v : VE.Idx → α) (e : Fin 3300000) (q : Fin 64) :
    broadcastInDim MEC ![0, 1] b_E1_EC (broadcastInDim ME1 ![0] b_E_E1 v) (ix2 e q) = v (ix1 e) :=
  Cert.Lib.broadcastInDim_column_apply v b_E_E1 b_E1_EC e q

/-- A per-node number laid as a column and repeated over the features. -/
theorem perNode_apply {α : Type} (d : VN.Idx → α) (r : Fin 100000) (c : Fin 64) :
    broadcastInDim MNC ![0, 1] b_N1_NC (shapeCast MN1 d c_N_N1) (ix2 r c) = d (ix1 r) := by
  refine (broadcastInDim_apply _ b_N1_NC _ (ix2 r c) (ix2 r (0 : Fin 1)) fun a => ?_).trans
    (Cert.LibColumnLayout.shapeCast_a_a1_apply d c_N_N1 r 0)
  match a with
  | ⟨0, _⟩ =>
    show r.val = if (100000 : ℕ) = 1 then 0 else r.val
    rw [if_neg (by decide)]
  | ⟨1, _⟩ =>
    show (0 : ℕ) = if (1 : ℕ) = 1 then 0 else c.val
    rw [if_pos rfl]

/-- The wrap-around leaves an index that is not negative alone. -/
theorem wrap_of_nonneg (v : IVec VE 32) (e : Fin 3300000) (h : 0 ≤ (v (ix1 e)).toInt) : wrap v (ix1 e) = v (ix1 e) := by
  have hs : (v (ix1 e)).slt 0#32 = false := by
    unfold BitVec.slt
    exact decide_eq_false (by rw [BitVec.toInt_zero]; omega)
  have hb : cmpi .slt v (broadcastInDim VE ![] b_0_E (constantI S0 32 0#32)) (ix1 e) = 0#1 := by
    show BitVec.ofBool ((v (ix1 e)).slt 0#32) = 0#1
    rw [hs]; rfl
  unfold wrap
  rw [select_apply, hb, select_zero]

/-- The all-zero array is zero everywhere. -/
theorem zerosNC_apply (i : MNC.Idx) : zerosNC (F := Ideal) i = 0 :=
  (splat_apply b_0_NC _ i).trans Ideal.ofBits_zero_f32

/-! ## The law -/

/-- Summing rows into the nodes of any array: the node's row entry plus the updates that land on it. -/
theorem sumRows_apply (z : FVec Ideal MNC .f32) (idx : IVec ME1 32) (upd : FVec Ideal MEC .f32) (i : MNC.Idx) :
    Host.scatterAdd sumRowsToNode z idx upd i
      = z i + ∑ j ∈ Finset.univ.filter (fun j => sumRowsToNode.resultIdx? j idx = some i), upd j := rfl

/-- Summing rows into the all-zero array: the updates that land on the entry. -/
theorem sumRows_zeros_apply (idx : IVec ME1 32) (upd : FVec Ideal MEC .f32) (i : MNC.Idx) :
    Host.scatterAdd sumRowsToNode (zerosNC (F := Ideal)) idx upd i
      = ∑ j ∈ Finset.univ.filter (fun j => sumRowsToNode.resultIdx? j idx = some i), upd j := by
  rw [sumRows_apply, zerosNC_apply, zero_add]

/-- One edge's term: with the destination word equal to `r`, the destination's factor times the scaled row entry is the
    row entry times both ends' factors. -/
theorem edge_term (xw P : FVec Ideal MNC .f32) (src dst : IVec VE 32)
    (hP : ∀ (r : Fin 100000) (c : Fin 64), P (ix2 r c) = dinv (F := Ideal) dst (ix1 r) * xw (ix2 r c))
    (r : Fin 100000) (e : Fin 3300000) (q : Fin 64) (hd : (dst (ix1 e)).toInt = (r.val : Int)) :
    dinv (F := Ideal) dst (ix1 r) * Host.gather takeRowAtNode P (col (wrap src)) (ix2 e q)
      = mulf (Host.gather takeRowAtNode xw (col (wrap src)))
          (broadcastInDim MEC ![0, 1] b_E1_EC (broadcastInDim ME1 ![0] b_E_E1
            (mulf (Host.gather takeAtNode (dinv (F := Ideal) dst) (col (wrap src)))
              (Host.gather takeAtNode (dinv (F := Ideal) dst) (col (wrap dst)))))) (ix2 e q) := by
  have ht' : rowOf (col (wrap dst) (ix2 e (0 : Fin 1))) = r := by
    rw [col_apply, wrap_of_nonneg dst e (by rw [hd]; exact Int.natCast_nonneg _)]
    exact clampRow_of_toInt_eq nodes_pos _ r hd
  rw [takeRow_apply, hP, mulf_apply, takeRow_apply, perEdge_apply, mulf_apply, takeAt_apply, takeAt_apply, ht']
  rw [← mul_assoc, mul_comm (dinv (F := Ideal) dst (ix1 r)), mul_comm]

/-- Arrangement two over rows that carry the source's factor is arrangement one. -/
theorem sumThenScale_eq_scaleThenSum (xw P : FVec Ideal MNC .f32) (src dst : IVec VE 32) (b : FVec Ideal VC .f32)
    (hP : ∀ (r : Fin 100000) (c : Fin 64), P (ix2 r c) = dinv (F := Ideal) dst (ix1 r) * xw (ix2 r c)) :
    sumThenScale P src dst b = scaleThenSum xw src dst b := by
  funext i
  obtain ⟨r, c, rfl⟩ : ∃ (r : Fin 100000) (c : Fin 64), i = ix2 r c := ⟨i 0, i 1, eq_ix2 i⟩
  unfold sumThenScale scaleThenSum
  rw [addf_apply, addf_apply, mulf_apply, perNode_apply, sumRows_zeros_apply, sumRows_zeros_apply]
  refine congrArg (fun t : EReal => t + biasRows (F := Ideal) b (ix2 r c)) ?_
  obtain ⟨h0, ht⟩ := dinv_nonneg_ne_top dst (ix1 r)
  rw [mul_sum_of_nonneg_ne_top _ _ h0 ht]
  refine Finset.sum_congr rfl fun j hj => ?_
  obtain ⟨e, q, rfl⟩ : ∃ (e : Fin 3300000) (q : Fin 64), j = ix2 e q := ⟨j 0, j 1, eq_ix2 j⟩
  have hland : (col dst (ix2 e (0 : Fin 1))).toInt = (r.val : Int) :=
    lands_row (col dst) e q r c (Finset.mem_filter.mp hj).2
  have hd : (dst (ix1 e)).toInt = (r.val : Int) := by rw [← col_apply dst e]; exact hland
  exact edge_term xw P src dst hP r e q hd

end Cert.Gcn

end
-- ==== Proof.Claims.lean ====
/-
  The kernel program and the reference compute one function, and the five claims.

  The region of the kernel program leaves, at row `r` and feature `q`, the factor of node `r` times entry `(r, q)` of
  (features × weights): its blocks are restrictions of that one array.  The host tail of the kernel program is arrangement
  two of the graph-convolution layer over that array, the reference is arrangement one over (features × weights); both
  use the same edge list, the same factors and the same bias, so the law joining the two arrangements makes the two
  results equal, index by index, as extended reals.  No hypothesis on the inputs is used: the only algebraic step that
  could fail at infinities is moving the destination's factor across a sum, and that factor is always a non-negative
  real.
-/
import proofs.«148235_j15839839387789_2_alg».proof.Defs
import proofs.«148235_j15839839387789_2_alg».proof.Proof.Gen.Kernel.Frame
import proofs.«148235_j15839839387789_2_alg».proof.Proof.Gen.KernelIdeal.Frame
import proofs.«148235_j15839839387789_2_alg».proof.Proof.Gen.Pre_finite_inputs
import proofs.«148235_j15839839387789_2_alg».proof.Proof.KernelRun
import proofs.«148235_j15839839387789_2_alg».proof.Proof.RefRun
import proofs.«148235_j15839839387789_2_alg».proof.Proof.RefProduct
import proofs.«148235_j15839839387789_2_alg».proof.Proof.PallasOut
import proofs.«148235_j15839839387789_2_alg».proof.Proof.GcnLaw

noncomputable section

open Idealize.ShloMosaic Idealize.ShloMosaic.TcCoe Idealize.ShloMosaic.ValueIdx Idealize.SL.Sem

namespace Cert.Proof.Claims

/-- The scaled product of any three arrays at `(r, q)`. -/
theorem scaledProduct_apply (x : Cert.KernelIdeal.S100000x256.Idx → EReal) (w : Cert.KernelIdeal.S256x64.Idx → EReal)
    (col : Cert.KernelIdeal.S100000x1.Idx → EReal) (r : Fin 100000) (q : Fin 64) :
    Cert.KernelIdeal.PallasOut.scaledProduct x w col (ix2 r q)
      = col (ix2 r (0 : Fin 1)) * ∑ k : Fin 256, x (ix2 r k) * w (ix2 k q) := rfl

/-- The region's output array at `(r, q)`: the factor of node `r` times the `(r, q)` entry of features × weights. -/
theorem region_entry (m : (ℓ : Loc Cert.KernelIdeal.nD Cert.KernelIdeal.τ Cert.KernelIdeal.sig) → Buf (Elt Ideal) ℓ)
    (c : Dev Cert.KernelIdeal.nD) (x : FVec Ideal Cert.KernelIdeal.S100000x256 .f32) (w : FVec Ideal Cert.KernelIdeal.S256x64 .f32)
    (hx : m ((c.tc : Thread Cert.KernelIdeal.nD Cert.KernelIdeal.τ).loc Cert.KernelIdeal.main_arg0) = x)
    (hw : m ((c.tc : Thread Cert.KernelIdeal.nD Cert.KernelIdeal.τ).loc Cert.KernelIdeal.main_arg1) = w)
    (r : Fin 100000) (q : Fin 64) :
    ((Cert.KernelIdeal.Gen.dats (F := Ideal) m 0 c).arrAt 3 Cert.KernelIdeal.cfg0.N : Cert.Gcn.MNC.Idx → EReal) (ix2 r q)
      = Cert.Gcn.dinv (F := Ideal) (Cert.Gcn.ends1 (m ((c.tc : Thread Cert.KernelIdeal.nD Cert.KernelIdeal.τ).loc Cert.KernelIdeal.main_arg3))) (ix1 r)
        * ∑ k : Fin 256, x (ix2 r k) * w (ix2 k q) := by
  have e15 : (Cert.KernelIdeal.Gen.V m c Cert.KernelIdeal.main_v15 : Cert.KernelIdeal.S100000x1.Idx → EReal) (ix2 r (0 : Fin 1))
      = Cert.Gcn.dinv (F := Ideal) (Cert.Gcn.ends1 (m ((c.tc : Thread Cert.KernelIdeal.nD Cert.KernelIdeal.τ).loc Cert.KernelIdeal.main_arg3))) (ix1 r) := by
    rw [Cert.KernelIdeal.KerRun.V_main_v15 m c]
    exact Cert.LibColumnLayout.shapeCast_a_a1_apply _ Cert.Gcn.c_N_N1 r 0
  have e0 : (Cert.KernelIdeal.Gen.V m c Cert.KernelIdeal.main_arg0 : Cert.KernelIdeal.S100000x256.Idx → EReal) = x :=
    (Cert.KernelIdeal.Gen.V_main_arg0 m c).trans hx
  have e1 : (Cert.KernelIdeal.Gen.V m c Cert.KernelIdeal.main_arg1 : Cert.KernelIdeal.S256x64.Idx → EReal) = w :=
    (Cert.KernelIdeal.Gen.V_main_arg1 m c).trans hw
  refine (congrFun (Cert.KernelIdeal.PallasOut.region_out m c) (ix2 r q)).trans ?_
  refine (scaledProduct_apply _ _ _ r q).trans ?_
  exact congrArg₂ (· * ·) e15 (Finset.sum_congr rfl fun k _ => congrArg₂ (· * ·) (congrFun e0 _) (congrFun e1 _))

/-- From memories that agree on the arguments the two programs leave the same result. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.RefRun.result (F := Ideal) m' c = Cert.KernelIdeal.KerRun.result (F := Ideal) m c := by
  unfold Cert.ReferenceIdeal.RefRun.result Cert.KernelIdeal.KerRun.result
  rw [h2, h3]
  refine (Cert.Gcn.sumThenScale_eq_scaleThenSum _ _ _ _ _ fun r q => ?_).symm
  rw [region_entry m c _ _ rfl rfl r q, Cert.ReferenceIdeal.RefProduct.xw_apply_of m' c r q _ _ h0 h1]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation: there is nothing to preserve. -/
theorem preserves : Cert.preserves_Kernel_KernelIdeal := trivial

/-- Both idealized programs run, and from memories agreeing on the arguments end with equal results. -/
theorem algebraic : Cert.algebraic_KernelIdeal_ReferenceIdeal := by
  intro m ρ m' ρ' _ hagree
  refine ⟨fun c => Cert.KernelIdeal.KerRun.result (F := Ideal) m c, Cert.KernelIdeal.KerRun.run (F := Ideal) m ρ, ?_⟩
  refine (θ_run Cert.ReferenceIdeal.defs _ _).mono (fun _ h c => ⟨(h c).1.trans ?_, (h c).2⟩)
    (Cert.ReferenceIdeal.RefRun.run (F := Ideal) m' ρ')
  exact result_eq m m' c (hagree c).1 (hagree c).2.1 (hagree c).2.2.1 (hagree c).2.2.2

end Cert.Proof.Claims

end
-- ==== Proof.lean ====
/- The certificate of a graph-convolution layer: a kernel program that multiplies (features × weights) row-wise by the
   nodes' normalisation factors in a pipelined region and sums the scaled rows over the edges on the host, against a
   reference that scales every message by both ends' factors and then sums.  The three frames are the programs' runs
   (the two kernel programs' by the region's frame, the reference's by its straight-line run); nothing was rewritten by
   the idealization; and the two idealized programs end with equal results because the destination's factor, a
   non-negative real, moves across the sum over the edges (Proof/Claims.lean, Proof/GcnLaw.lean). -/
import proofs.«148235_j15839839387789_2_alg».proof.Defs
import proofs.«148235_j15839839387789_2_alg».proof.Proof.Gen.Kernel
import proofs.«148235_j15839839387789_2_alg».proof.Proof.Gen.Kernel.Skeleton
import proofs.«148235_j15839839387789_2_alg».proof.Proof.Gen.Kernel.Launch
import proofs.«148235_j15839839387789_2_alg».proof.Proof.Gen.Kernel.Points
import proofs.«148235_j15839839387789_2_alg».proof.Proof.Gen.Kernel.Frame
import proofs.«148235_j15839839387789_2_alg».proof.Proof.Gen.KernelIdeal
import proofs.«148235_j15839839387789_2_alg».proof.Proof.Gen.KernelIdeal.Skeleton
import proofs.«148235_j15839839387789_2_alg».proof.Proof.Gen.KernelIdeal.Launch
import proofs.«148235_j15839839387789_2_alg».proof.Proof.Gen.KernelIdeal.Points
import proofs.«148235_j15839839387789_2_alg».proof.Proof.Gen.KernelIdeal.Frame
import proofs.«148235_j15839839387789_2_alg».proof.Proof.Gen.ReferenceIdeal
import proofs.«148235_j15839839387789_2_alg».proof.Proof.Gen.Pre_finite_inputs
import proofs.«148235_j15839839387789_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, Cert.Proof.Claims.frame_k, Cert.Proof.Claims.frame_ki, Cert.Proof.Claims.frame_ri, Cert.Proof.Claims.preserves, Cert.Proof.Claims.algebraic⟩

end Cert.Proof

end
